-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x1 : Shape := ⟨2, ![50000, 1]⟩
abbrev S10000x1 : Shape := ⟨2, ![10000, 1]⟩
abbrev S1x1 : Shape := ⟨2, ![1, 1]⟩

abbrev nBuf : Space → Nat
  | .hbm => 107
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x1, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x1, .f32⟩
  | .hbm, ⟨99, _⟩ => ⟨S850000x1, .f32⟩
  | .hbm, ⟨100, _⟩ => ⟨S850000x1, .f32⟩
  | .hbm, ⟨101, _⟩ => ⟨S_, .f32⟩
  | .hbm, ⟨102, _⟩ => ⟨S50000x1, .f32⟩
  | .hbm, ⟨103, _⟩ => ⟨S850000x1, .i32⟩
  | .hbm, ⟨104, _⟩ => ⟨S50000x1, .f32⟩
  | .hbm, ⟨105, _⟩ => ⟨S1x1, .f32⟩
  | .hbm, ⟨106, _⟩ => ⟨S50000x1, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x1, .f32⟩
  | .local _ .vmem, ⟨23, _⟩ => ⟨S10000x1, .f32⟩
  | .local _ .vmem, ⟨24, _⟩ => ⟨S10000x1, .f32⟩
  | .local _ .vmem, ⟨25, _⟩ => ⟨S10000x1, .f32⟩
  | .local _ .vmem, ⟨26, _⟩ => ⟨S10000x1, .f32⟩
  | .local _ .vmem, ⟨27, _⟩ => ⟨S1x1, .f32⟩
  | .local _ .vmem, ⟨28, _⟩ => ⟨S10000x1, .f32⟩
  | .local _ .vmem, ⟨29, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x1_S128x1_0_0 : ∀ a, (![0, 0] : Fin 2 → Nat) a + S128x1.size a ≤ S128x1.size a
  h_S128x1 : 0 < S128x1.numel
  inb_S10000x1_S10000x1_0_0 : ∀ a, (![0, 0] : Fin 2 → Nat) a + S10000x1.size a ≤ S10000x1.size a
  h_S10000x1 : 0 < S10000x1.numel
  bcast_S_S50000x1 : S_.BroadcastsInDim S50000x1 (![] : Fin 0 → Fin S50000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x1_S10000x1_1_0_0_1_n_n_wf : DotDims.WF S10000x128 S128x1 S10000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S50000x1.size a
  hwx4_2 : ∀ i : grid4.Coords, EltTy.bits .f32 = 32 ∨ (Rect.block (s := S50000x1) S10000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S50000x1.size a
  hwx5_0 : ∀ i : grid5.Coords, EltTy.bits .f32 = 32 ∨ (Rect.block (s := S50000x1) S10000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S50000x1.size a
  hwx5_2 : ∀ i : grid5.Coords, EltTy.bits .f32 = 32 ∨ (Rect.block (s := S50000x1) S10000x1.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S10000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x1, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x1, .f32⟩
  | .hbm, ⟨107, _⟩ => ⟨S850000x1, .f32⟩
  | .hbm, ⟨108, _⟩ => ⟨S850000x1, .f32⟩
  | .hbm, ⟨109, _⟩ => ⟨S_, .f32⟩
  | .hbm, ⟨110, _⟩ => ⟨S50000x1, .f32⟩
  | .hbm, ⟨111, _⟩ => ⟨S850000x1, .i32⟩
  | .hbm, ⟨112, _⟩ => ⟨S50000x1, .f32⟩
  | .hbm, ⟨113, _⟩ => ⟨S1x1, .f32⟩
  | .hbm, ⟨114, _⟩ => ⟨S50000x1, .f32⟩
  | .hbm, ⟨115, _⟩ => ⟨S50000x1, .f32⟩
  | .hbm, ⟨116, _⟩ => ⟨S50000x1, .f32⟩
  | .hbm, ⟨117, _⟩ => ⟨S50000x1, .f32⟩
  | .hbm, ⟨118, _⟩ => ⟨S_, .f32⟩
  | .hbm, ⟨119, _⟩ => ⟨S50000x1, .f32⟩
  | .hbm, ⟨120, _⟩ => ⟨S50000x1, .f32⟩
  | .hbm, ⟨121, _⟩ => ⟨S_, .f32⟩
  | .hbm, ⟨122, _⟩ => ⟨S50000x1, .f32⟩
  | .hbm, ⟨123, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_16 : Ref sig .tc := ⟨.hbm, 118, rfl⟩
abbrev main_v86 : Ref sig .tc := ⟨.hbm, 119, rfl⟩
abbrev main_v87 : Ref sig .tc := ⟨.hbm, 120, rfl⟩
abbrev main_cst_17 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.KRun.lean ====
/-
  The idealized kernel program's run with its result named.

  The program is six tiled regions among stretches of host operations. Its run ends with every buffer outside the
  scoped staging memory at the value the fold of the segments leaves there: a host stretch rewrites the buffers its
  operations write, a region rewrites its output array to what its grid points wrote back. The frame statement keeps
  only the argument arrays of that final valuation; here the result array `main_v78` is kept as well, still as the
  fold's value, to be computed by the modules that follow.
-/
import proofs.«133099_j58248346468472_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the final
    valuation's value, and the argument arrays as launched. -/
theorem run_result : θ_run defs (onTc (τ := τ) (main (F := F))) ⟨m, fun _ => 0, ρ⟩ (fun r => ∀ c : Dev nD,
      r.2.mem ((c.tc : Thread nD τ).loc main_v78) = W12 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v78 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Hand

end
-- ==== Proof.KKeep.lean ====
/-
  Buffers that stay put while the program runs.

  The program's final valuation is a fold: three stretches of host operations, then six regions with three more stretches
  among them. A host stretch changes only the buffers its operations write, and a region changes only its output array.
  So the edge lists (sources, targets) and the edge weights, computed once before the first region, are still there when
  each layer's host stretch reads them, and each argument array is still as launched when a region or a host stretch
  reads it. Each lemma walks one buffer back through the fold, step by step, to where it was last written.
-/
import proofs.«133099_j58248346468472_2_alg».proof.Proof.Gen.KernelIdeal.Frame
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg) (c : Dev nD)

/-- A stretch of host operations leaves a buffer none of its operations writes: each operation's written buffer is a
    different reference. -/
macro "keep_host" : tactic => `(tactic| (
  refine StableHlo.after_of_forall_not_mem _ _ (List.forall_iff_forall_mem.mp ?_)
  simp only [hostOps0, hostOps0_1, hostOps0_2, hostOps1, hostOps3, hostOps5, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The edge lists and the edge weights, from each layer's host stretch back to the first region's entry -/

/-- When the first layer's host stretch runs, `main_v3` is as at the first region's entry. -/
theorem W4_main_v3 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- When the second layer's host stretch runs, `main_v3` is as at the first region's entry. -/
theorem W7_main_v3 : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keep_host
    _ = W3 m ρ c (Proc.devRef .tc main_v3) := W4_of_ne m ρ c main_v3 (by decide)

/-- When the third layer's host stretch runs, `main_v3` is as at the first region's entry. -/
theorem W10_main_v3 : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by keep_host
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keep_host
    _ = W3 m ρ c (Proc.devRef .tc main_v3) := W4_of_ne m ρ c main_v3 (by decide)

/-- When the first layer's host stretch runs, `main_v6` is as at the first region's entry. -/
theorem W4_main_v6 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- When the second layer's host stretch runs, `main_v6` is as at the first region's entry. -/
theorem W7_main_v6 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keep_host
    _ = W3 m ρ c (Proc.devRef .tc main_v6) := W4_of_ne m ρ c main_v6 (by decide)

/-- When the third layer's host stretch runs, `main_v6` is as at the first region's entry. -/
theorem W10_main_v6 : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by keep_host
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keep_host
    _ = W3 m ρ c (Proc.devRef .tc main_v6) := W4_of_ne m ρ c main_v6 (by decide)

/-- When the first layer's host stretch runs, `main_v31` is as at the first region's entry. -/
theorem W4_main_v31 : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

/-- When the second layer's host stretch runs, `main_v31` is as at the first region's entry. -/
theorem W7_main_v31 : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := by keep_host
    _ = W3 m ρ c (Proc.devRef .tc main_v31) := W4_of_ne m ρ c main_v31 (by decide)

/-- When the third layer's host stretch runs, `main_v31` is as at the first region's entry. -/
theorem W10_main_v31 : W10 m ρ c (Proc.devRef .tc main_v31) = W3 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := W9_of_ne m ρ c main_v31 (by decide)
    _ = W7 m ρ c (Proc.devRef .tc main_v31) := by keep_host
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := by keep_host
    _ = W3 m ρ c (Proc.devRef .tc main_v31) := W4_of_ne m ρ c main_v31 (by decide)

/-! ## The argument arrays, from where they are read back to the launch -/

/-- The node features at the first projection's entry. -/
theorem W3_main_arg0 : W3 m ρ c (Proc.devRef .tc main_arg0) = m ((c : Thread nD τ).loc main_arg0) :=
  calc W3 m ρ c (Proc.devRef .tc main_arg0)
    _ = W2 m ρ c (Proc.devRef .tc main_arg0) := by keep_host
    _ = W1 m ρ c (Proc.devRef .tc main_arg0) := by keep_host
    _ = W0 m ρ c (Proc.devRef .tc main_arg0) := by keep_host
    _ = m ((c : Thread nD τ).loc main_arg0) := rfl

/-- The first weight matrix at the first projection's entry. -/
theorem W3_main_arg2 : W3 m ρ c (Proc.devRef .tc main_arg2) = m ((c : Thread nD τ).loc main_arg2) :=
  calc W3 m ρ c (Proc.devRef .tc main_arg2)
    _ = W2 m ρ c (Proc.devRef .tc main_arg2) := by keep_host
    _ = W1 m ρ c (Proc.devRef .tc main_arg2) := by keep_host
    _ = W0 m ρ c (Proc.devRef .tc main_arg2) := by keep_host
    _ = m ((c : Thread nD τ).loc main_arg2) := rfl

/-- The first bias when the first layer's host stretch makes it a row. -/
theorem W4_main_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by keep_host
    _ = W1 m ρ c (Proc.devRef .tc main_arg3) := by keep_host
    _ = W0 m ρ c (Proc.devRef .tc main_arg3) := by keep_host
    _ = m ((c : Thread nD τ).loc main_arg3) := rfl

/-- The second weight matrix at the second projection's entry. -/
theorem W6_main_arg4 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by keep_host
    _ = W3 m ρ c (Proc.devRef .tc main_arg4) := W4_of_ne m ρ c main_arg4 (by decide)
    _ = W2 m ρ c (Proc.devRef .tc main_arg4) := by keep_host
    _ = W1 m ρ c (Proc.devRef .tc main_arg4) := by keep_host
    _ = W0 m ρ c (Proc.devRef .tc main_arg4) := by keep_host
    _ = m ((c : Thread nD τ).loc main_arg4) := rfl

/-- The second bias when the second layer's host stretch makes it a row. -/
theorem W7_main_arg5 : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by keep_host
    _ = W3 m ρ c (Proc.devRef .tc main_arg5) := W4_of_ne m ρ c main_arg5 (by decide)
    _ = W2 m ρ c (Proc.devRef .tc main_arg5) := by keep_host
    _ = W1 m ρ c (Proc.devRef .tc main_arg5) := by keep_host
    _ = W0 m ρ c (Proc.devRef .tc main_arg5) := by keep_host
    _ = m ((c : Thread nD τ).loc main_arg5) := rfl

/-- The third weight matrix at the third projection's entry. -/
theorem W9_main_arg6 : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := by keep_host
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by keep_host
    _ = W3 m ρ c (Proc.devRef .tc main_arg6) := W4_of_ne m ρ c main_arg6 (by decide)
    _ = W2 m ρ c (Proc.devRef .tc main_arg6) := by keep_host
    _ = W1 m ρ c (Proc.devRef .tc main_arg6) := by keep_host
    _ = W0 m ρ c (Proc.devRef .tc main_arg6) := by keep_host
    _ = m ((c : Thread nD τ).loc main_arg6) := rfl

/-- The third bias when the third layer's host stretch makes it a [1, 1] array. -/
theorem W10_main_arg7 : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := by keep_host
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by keep_host
    _ = W3 m ρ c (Proc.devRef .tc main_arg7) := W4_of_ne m ρ c main_arg7 (by decide)
    _ = W2 m ρ c (Proc.devRef .tc main_arg7) := by keep_host
    _ = W1 m ρ c (Proc.devRef .tc main_arg7) := by keep_host
    _ = W0 m ρ c (Proc.devRef .tc main_arg7) := by keep_host
    _ = m ((c : Thread nD τ).loc main_arg7) := rfl

end Cert.KernelIdeal.Hand

end
-- ==== Proof.KBase.lean ====
/-
  The edge lists and the edge weights at the first region's entry.

  Before the first region the program builds, on the host, the edge lists with one self-loop per node appended (sources
  `main_v3`, targets `main_v6`) and the weight of each edge (`main_v31`): the in-degree of every node as a scatter-add of
  ones over the targets, its inverse square root where the degree is positive (a select against zero), gathered at both
  ends of each edge and multiplied. The reference program spells the same operations in the same order, so each of these
  buffers holds the reference's stage of the same name, as a function of the edge index array alone. The three host
  stretches are read one after the other: the first builds the lists, the degree test and the inverse square roots, the
  second the select, the third the gathers and the product.
-/
import proofs.«133099_j58248346468472_2_alg».proof.Proof.Gen.KernelIdeal.Frame
import proofs.«133099_j58248346468472_2_alg».proof.Proof.RefRead

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg) (c : Dev nD)

/-! ## After the first stretch -/

/-- The sources with self-loops. -/
theorem W1_main_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  simp only [hostOps0]
  after_results_simp
  rfl

/-- The targets with self-loops. -/
theorem W1_main_v6 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  simp only [hostOps0]
  after_results_simp
  rfl

/-- Which nodes have a positive in-degree. -/
theorem W1_main_v12 : W1 m ρ c (Proc.devRef .tc main_v12) = Cert.ReferenceIdeal.Read.val_main_v12 (F := Ideal) (m ((c : Thread nD τ).loc main_arg1)) := by
  show StableHlo.after hostOps0 (W0 m ρ c) (Proc.devRef .tc main_v12) = _
  simp only [hostOps0]
  after_results_simp
  rfl

/-- The inverse square root of every node's in-degree, floored away from zero. -/
theorem W1_main_v15 : W1 m ρ c (Proc.devRef .tc main_v15) = Cert.ReferenceIdeal.Read.val_main_v15 (F := Ideal) (m ((c : Thread nD τ).loc main_arg1)) := by
  show StableHlo.after hostOps0 (W0 m ρ c) (Proc.devRef .tc main_v15) = _
  simp only [hostOps0]
  after_results_simp
  rfl

/-- The scalar zero the select falls back to. -/
theorem W1_main_cst_3 : W1 m ρ c (Proc.devRef .tc main_cst_3) = Cert.ReferenceIdeal.Read.val_main_cst_3 (F := Ideal) := by
  show StableHlo.after hostOps0 (W0 m ρ c) (Proc.devRef .tc main_cst_3) = _
  simp only [hostOps0]
  after_results_simp
  rfl

/-! ## After the second stretch -/

/-- The second stretch, from any contents: per node, the second operand where the first holds, else the scalar repeated. -/
theorem select_stage (V : Valuation τ sig (Elt Ideal)) (p : (⟨S50000, .i1⟩ : BufTy).Contents (Elt Ideal))
    (q : (⟨S50000, .f32⟩ : BufTy).Contents (Elt Ideal)) (z : (⟨S_, .f32⟩ : BufTy).Contents (Elt Ideal))
    (h12 : V (Proc.devRef .tc main_v12) = p) (h15 : V (Proc.devRef .tc main_v15) = q) (h3 : V (Proc.devRef .tc main_cst_3) = z) :
    StableHlo.after hostOps0_1 V (Proc.devRef .tc main_v16) = select p q (broadcastInDim S50000 ![] bcast_S_S50000 (id z)) := by
  simp only [hostOps0_1]
  after_results_simp
  rw [h12, h15, h3]
  rfl

/-- The second stretch writes neither edge list. -/
theorem select_stage_keep (V : Valuation τ sig (Elt Ideal)) :
    StableHlo.after hostOps0_1 V (Proc.devRef .tc main_v3) = V (Proc.devRef .tc main_v3)
    ∧ StableHlo.after hostOps0_1 V (Proc.devRef .tc main_v6) = V (Proc.devRef .tc main_v6) := by
  constructor <;> (simp only [hostOps0_1]; after_results_simp)

/-- The third stretch, from any contents: the factor gathered at the two ends of every edge, multiplied. -/
theorem weight_stage (V : Valuation τ sig (Elt Ideal)) (x1 : (⟨S2x800000, .i32⟩ : BufTy).Contents (Elt Ideal))
    (h3 : V (Proc.devRef .tc main_v3) = Cert.ReferenceIdeal.Read.val_main_v3 (F := Ideal) x1)
    (h6 : V (Proc.devRef .tc main_v6) = Cert.ReferenceIdeal.Read.val_main_v6 (F := Ideal) x1)
    (h16 : V (Proc.devRef .tc main_v16) = Cert.ReferenceIdeal.Read.val_main_v16 (F := Ideal) x1) :
    StableHlo.after hostOps0_2 V (Proc.devRef .tc main_v31) = Cert.ReferenceIdeal.Read.val_main_v31 (F := Ideal) x1 := by
  simp only [hostOps0_2]
  after_results_simp
  rw [h3, h6, h16]
  rfl

/-- The third stretch writes neither edge list. -/
theorem weight_stage_keep (V : Valuation τ sig (Elt Ideal)) :
    StableHlo.after hostOps0_2 V (Proc.devRef .tc main_v3) = V (Proc.devRef .tc main_v3)
    ∧ StableHlo.after hostOps0_2 V (Proc.devRef .tc main_v6) = V (Proc.devRef .tc main_v6) := by
  constructor <;> (simp only [hostOps0_2]; after_results_simp)

/-- The normalizing factor of every node: the inverse square root of its in-degree, zero where the degree is zero. -/
theorem W2_main_v16 : W2 m ρ c (Proc.devRef .tc main_v16) = Cert.ReferenceIdeal.Read.val_main_v16 (F := Ideal) (m ((c : Thread nD τ).loc main_arg1)) :=
  (select_stage (W1 m ρ c) _ _ _ (W1_main_v12 m ρ c) (W1_main_v15 m ρ c) (W1_main_cst_3 m ρ c)).trans rfl

theorem W2_main_v3 : W2 m ρ c (Proc.devRef .tc main_v3) = Cert.ReferenceIdeal.Read.val_main_v3 (F := Ideal) (m ((c : Thread nD τ).loc main_arg1)) :=
  (select_stage_keep (W1 m ρ c)).1.trans (W1_main_v3 m ρ c)

theorem W2_main_v6 : W2 m ρ c (Proc.devRef .tc main_v6) = Cert.ReferenceIdeal.Read.val_main_v6 (F := Ideal) (m ((c : Thread nD τ).loc main_arg1)) :=
  (select_stage_keep (W1 m ρ c)).2.trans (W1_main_v6 m ρ c)

/-! ## After the third stretch: the first region's entry -/

/-- The sources with self-loops at the first region's entry. -/
theorem W3_main_v3 : W3 m ρ c (Proc.devRef .tc main_v3) = Cert.ReferenceIdeal.Read.val_main_v3 (F := Ideal) (m ((c : Thread nD τ).loc main_arg1)) :=
  (weight_stage_keep (W2 m ρ c)).1.trans (W2_main_v3 m ρ c)

/-- The targets with self-loops at the first region's entry. -/
theorem W3_main_v6 : W3 m ρ c (Proc.devRef .tc main_v6) = Cert.ReferenceIdeal.Read.val_main_v6 (F := Ideal) (m ((c : Thread nD τ).loc main_arg1)) :=
  (weight_stage_keep (W2 m ρ c)).2.trans (W2_main_v6 m ρ c)

/-- The edge weights at the first region's entry. -/
theorem W3_main_v31 : W3 m ρ c (Proc.devRef .tc main_v31) = Cert.ReferenceIdeal.Read.val_main_v31 (F := Ideal) (m ((c : Thread nD τ).loc main_arg1)) :=
  weight_stage (W2 m ρ c) _ (W2_main_v3 m ρ c) (W2_main_v6 m ρ c) (W2_main_v16 m ρ c)

end Cert.KernelIdeal.Hand

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.Reg4.lean ====
/-
  The third layer's projection region: its output array after the run.

  The region tiles the rows of a [50000, 128] matrix A into five blocks of 10000 rows; at each grid point the body
  multiplies the point's block of A by the whole [128, 1] matrix B on the matrix unit, from a zero accumulator, and
  writes the [10000, 1] product back as the point's block of the output. Rounding the operands to bf16 is the identity
  on the extended reals, so entry (r, c) of what a point writes is the sum over k of A (10000·t + r, k) · B (k, c): the
  blocks are the restrictions of ONE array, the matrix product A · B, and the five blocks cover it.
-/
import proofs.«133099_j58248346468472_2_alg».proof.Proof.Gen.KernelIdeal.Frame
import proofs.«133099_j58248346468472_2_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.Reg4

open Cert.KernelIdeal Cert.KernelIdeal.Gen

theorem hz : (![0, 0] : Fin 2 → Nat) = fun _ => 0 := funext fun a => by fin_cases a <;> rfl

/-- The body's stored value at an entry: when the loaded block of the left operand is rows `r·10000 …` of `A` and the
    loaded right operand is `B`, entry `j` of the stored block is entry `i` of the product `A · B`, for `i` the entry
    `j` moved down by `r` blocks of rows. -/
theorem payload_entry (A : FVec Ideal S50000x128 .f32) (B : FVec Ideal S128x1 .f32)
    (x0 : Vec Ideal S10000x128 .f32) (x1 : Vec Ideal S128x1 .f32) (r : Nat)
    (h0 : ∀ (y : S10000x128.Idx) (i : S50000x128.Idx), (i 0).val = r * 10000 + (y 0).val → (i 1).val = (y 1).val → x0 y = A i)
    (h1 : ∀ y : S128x1.Idx, x1 y = B y)
    (j : S10000x1.Idx) (i : S50000x1.Idx) (e0 : (i 0).val = r * 10000 + (j 0).val) (e1 : (i 1).val = (j 1).val) :
    k4_pay1 x0 x1 j = Host.dotGeneral (F := Ideal) (φ₁ := .f32) (φ₂ := .f32) (DotDims.plain 50000 128 1) none A B i := by
  unfold k4_pay1
  refine (PlainDot.matmul_zero_apply (M := 10000) (K := 128) (N := 1) dot_S10000x128_S128x1_S10000x1_1_0_0_1_n_n rfl none
    (truncf .bf16 (shapeCast S10000x128 x0 shapeCasts_S10000x128_S10000x128) bitsLt_bf16_f32) (truncf .bf16 x1 bitsLt_bf16_f32) j).trans ?_
  refine Eq.trans ?_ (PlainDot.hostDot_apply (M := 50000) (K := 128) (N := 1) (DotDims.plain 50000 128 1) rfl none A B i).symm
  refine Finset.sum_congr rfl fun k _ => ?_
  have ea : x0 (ix2 (j 0) k) = A (ix2 (i 0) k) := h0 _ _ e0 rfl
  have eb : x1 (ix2 k (j 1)) = B (ix2 k (i 1)) := (h1 _).trans (congrArg B (funext fun a => Fin.ext (by
    match a with
    | ⟨0, _⟩ => rfl
    | ⟨1, _⟩ => exact e1.symm)))
  have ec : (shapeCast S10000x128 x0 shapeCasts_S10000x128_S10000x128) (ix2 (j 0) k) = x0 (ix2 (j 0) k) :=
    congrFun (shapeCast_self x0 shapeCasts_S10000x128_S10000x128) _
  show (shapeCast S10000x128 x0 shapeCasts_S10000x128_S10000x128) (ix2 (j 0) k) * x1 (ix2 k (j 1)) = A (ix2 (i 0) k) * B (ix2 k (i 1))
  rw [ec, ea, eb]

variable (V : (c : Dev nD) → (b : Ref sig .tc) → Buf (Elt Ideal) ((c : Thread nD τ).loc b))

/-- The three windows' block indices over the grid: the left operand's block moves with the output's, down the rows; the
    right operand is one block; nothing moves along the columns. -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 4 :=
  (by decide +kernel : ∀ t : Fin grid4.N, _)

/-- Every block of rows of the output is some point's. -/
theorem idx_onto : ∀ q : Fin 5, ∃ t : Fin cfg4.N, win4_2.index t (0 : Fin 2) = q.val :=
  (by decide +kernel : ∀ q : Fin 5, ∃ t : Fin grid4.N, win4_2.index t (0 : Fin 2) = q.val)

/-- What point `t` writes back is block `t` of the product of the two arrays as the region finds them. -/
theorem flushed_eq (c : Dev nD) (t : Fin cfg4.N) :
    (dat4 V c).flushed 2 t = ((cfg4.win 2).blk t).view.read (Elt Ideal)
      (Host.dotGeneral (F := Ideal) (φ₁ := .f32) (φ₂ := .f32) (DotDims.plain 50000 128 1) none (V c main_v63) (V c main_arg6)) := by
  show (cfg4.win 2).cut (grid4.coords t) ((dat4 V c).after 2 t) = _
  rw [after4_2]
  unfold out4_2
  rw [View.canon_unit_zero hz]
  simp only [View.ld_unit_zero (S := S10000x128) hz, View.ld_unit_zero (S := S128x1) hz]
  obtain ⟨f0, f1, f2, f3, f4, f5⟩ := idx_facts t
  funext j
  show k4_pay1 (iblk4 V c 0 t) (iblk4 V c 1 t) j
    = Host.dotGeneral (F := Ideal) (φ₁ := .f32) (φ₂ := .f32) (DotDims.plain 50000 128 1) none (V c main_v63) (V c main_arg6) (((cfg4.win 2).blk t).view.emb j)
  refine payload_entry (V c main_v63) (V c main_arg6) (iblk4 V c 0 t) (iblk4 V c 1 t) (win4_2.index t (0 : Fin 2)) ?_ ?_ j _ ?_ ?_
  · intro y i e0 e1
    show V c main_v63 (((cfg4.win 0).blk t).view.emb y) = V c main_v63 i
    refine congrArg (V c main_v63) (funext fun a => Fin.ext ?_)
    match a with
    | ⟨0, _⟩ => show win4_0.index t (0 : Fin 2) * 10000 + 1 * (y 0).val = (i 0).val; omega
    | ⟨1, _⟩ => show win4_0.index t (1 : Fin 2) * 128 + 1 * (y 1).val = (i 1).val; omega
  · intro y
    show V c main_arg6 (((cfg4.win 1).blk t).view.emb y) = V c main_arg6 y
    refine congrArg (V c main_arg6) (funext fun a => Fin.ext ?_)
    match a with
    | ⟨0, _⟩ => show win4_1.index t (0 : Fin 2) * 128 + 1 * (y 0).val = (y 0).val; omega
    | ⟨1, _⟩ => show win4_1.index t (1 : Fin 2) * 1 + 1 * (y 1).val = (y 1).val; omega
  · show win4_2.index t (0 : Fin 2) * 10000 + 1 * (j 0).val = win4_2.index t (0 : Fin 2) * 10000 + (j 0).val; omega
  · show win4_2.index t (1 : Fin 2) * 1 + 1 * (j 1).val = (j 1).val; omega

/-- An entry of the output array is in point `t`'s block iff each coordinate is in the block's range on its axis. -/
theorem mem_blk (t : Fin cfg4.N) (i : S50000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v64).slice (win4_2.rect t)).set ↔ _
  rw [View.set_slice_whole, Rect.mem_set_unit]
  exact Iff.rfl

/-- The output array after the region: the product of the two arrays as the region finds them. -/
theorem value (c : Dev nD) : (dat4 V c).arrAt 2 cfg4.N
    = Host.dotGeneral (F := Ideal) (φ₁ := .f32) (φ₂ := .f32) (DotDims.plain 50000 128 1) none (V c main_v63) (V c main_arg6) :=
  (dat4 V c).arrAt_eq_of_cover 2 (Host.dotGeneral (F := Ideal) (φ₁ := .f32) (φ₂ := .f32) (DotDims.plain 50000 128 1) none (V c main_v63) (V c main_arg6))
    (fun t _ => flushed_eq V c t) fun i => by
      have hi0 : (i 0).val < 50000 := (i 0).isLt
      have hi1 : (i 1).val < 1 := (i 1).isLt
      obtain ⟨t, ht⟩ := idx_onto ⟨(i 0).val / 10000, by omega⟩
      obtain ⟨f0, f1, f2, f3, f4, f5⟩ := idx_facts t
      have ht' : win4_2.index t (0 : Fin 2) = (i 0).val / 10000 := ht
      refine ⟨t, flush4_2 t, ?_⟩
      rw [mem_blk]
      intro a
      match a with
      | ⟨0, _⟩ => show win4_2.index t (0 : Fin 2) * 10000 ≤ (i 0).val ∧ (i 0).val < win4_2.index t (0 : Fin 2) * 10000 + 10000; omega
      | ⟨1, _⟩ => show win4_2.index t (1 : Fin 2) * 1 ≤ (i 1).val ∧ (i 1).val < win4_2.index t (1 : Fin 2) * 1 + 1; omega

end Cert.KernelIdeal.Hand.Reg4

end
-- ==== Proof.Reg5.lean ====
/-
  The third layer's bias-and-logistic region: its output array after the run.

  The region tiles the rows of a [50000, 1] column X into five blocks of 10000 rows; at each grid point the body adds the
  [1, 1] bias to every entry of the point's block, applies the logistic function, and writes the block back. Entry r of
  what a point writes is logistic (X (10000·t + r) + b). On the extended reals the logistic function IS
  1 / (1 + exp (−x)) — the quotient and the exponential with their conventions at the infinities —, which is how the
  host spells it, operation by operation, with the word of 1.0 for the two ones. So the blocks are the restrictions of
  ONE array, the host's spelling applied to X and the bias, and the five blocks cover it.
-/
import proofs.«133099_j58248346468472_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.Reg5

open Cert.KernelIdeal Cert.KernelIdeal.Gen

theorem hz : (![0, 0] : Fin 2 → Nat) = fun _ => 0 := funext fun a => by fin_cases a <;> rfl

/-- The word of 1.0 denotes the extended real 1. -/
theorem one_word : Ideal.ofBits .f32 0x3F800000#32 = 1 := by
  simp [Ideal.ofBits, Ideal.ieee, -EReal.coe_mul]; norm_num

/-- The host's spelling of the last epilogue on whole arrays: the bias made a [1, 1] array and repeated down the rows,
    added; then 1 / (1 + exp (−·)) with the ones as a scalar constant repeated everywhere. -/
def biasLogistic (hb1 : S1.BroadcastsInDim S1x1 ![1]) (hb2 : S1x1.BroadcastsInDim S50000x1 ![0, 1])
    (hb0 : S_.BroadcastsInDim S50000x1 ![]) (X : FVec Ideal S50000x1 .f32) (b : FVec Ideal S1 .f32) :
    FVec Ideal S50000x1 .f32 :=
  Host.divf (broadcastInDim S50000x1 ![] hb0 (constant S_ .f32 0x3F800000#32))
    (addf (broadcastInDim S50000x1 ![] hb0 (constant S_ .f32 0x3F800000#32))
      (Host.exp (Host.negf (addf X (broadcastInDim S50000x1 ![0, 1] hb2 (broadcastInDim S1x1 ![1] hb1 b))))))

/-- The host's spelling at an entry is the logistic function of the entry plus the bias. -/
theorem biasLogistic_apply (hb1 : S1.BroadcastsInDim S1x1 ![1]) (hb2 : S1x1.BroadcastsInDim S50000x1 ![0, 1])
    (hb0 : S_.BroadcastsInDim S50000x1 ![]) (X : FVec Ideal S50000x1 .f32) (b : FVec Ideal S1 .f32) (i : S50000x1.Idx) :
    biasLogistic hb1 hb2 hb0 X b i = FloatOps.logistic (FloatOps.addf (X i) (b (ix1 (0 : Fin 1)))) := by
  have e1 : broadcastInDim S50000x1 ![0, 1] hb2 (broadcastInDim S1x1 ![1] hb1 b) i = b (ix1 (0 : Fin 1)) :=
    (broadcastInDim_apply ![0, 1] hb2 (broadcastInDim S1x1 ![1] hb1 b) i (ix2 (0 : Fin 1) (0 : Fin 1)) (fun a => by
      match a with
      | ⟨0, _⟩ => show 0 = if (1 : Nat) = 1 then 0 else (i 0).val; rw [if_pos rfl]
      | ⟨1, _⟩ => show 0 = if (1 : Nat) = 1 then 0 else (i 1).val; rw [if_pos rfl])).trans
    (broadcastInDim_apply ![1] hb1 b (ix2 (0 : Fin 1) (0 : Fin 1)) (ix1 (0 : Fin 1)) (fun a => by
      match a with
      | ⟨0, _⟩ => show 0 = if (1 : Nat) = 1 then 0 else _; rw [if_pos rfl]))
  have e2 : broadcastInDim S50000x1 ![] hb0 (constant (F := Ideal) S_ .f32 0x3F800000#32) i = (1 : EReal) :=
    (broadcastInDim_apply ![] hb0 (constant (F := Ideal) S_ .f32 0x3F800000#32) i ix0 (fun a => a.elim0)).trans one_word
  show FloatOps.hostDivf (broadcastInDim S50000x1 ![] hb0 (constant (F := Ideal) S_ .f32 0x3F800000#32) i)
      (FloatOps.addf (broadcastInDim S50000x1 ![] hb0 (constant (F := Ideal) S_ .f32 0x3F800000#32) i)
        (FloatOps.hostUnary .exp (FloatOps.hostNegf (FloatOps.addf (X i)
          (broadcastInDim S50000x1 ![0, 1] hb2 (broadcastInDim S1x1 ![1] hb1 b) i))))) = _
  rw [e1, e2]
  rfl

/-- The body's stored value at an entry: when the loaded block is rows `r·10000 …` of `X` and the loaded bias is `b`,
    entry `j` of the stored block is logistic (X i + b) for `i` the entry `j` moved down by `r` blocks of rows. -/
theorem payload_entry (X : FVec Ideal S50000x1 .f32) (b : FVec Ideal S1 .f32)
    (x0 : Vec Ideal S10000x1 .f32) (x1 : Vec Ideal S1x1 .f32) (r : Nat)
    (h0 : ∀ (y : S10000x1.Idx) (i : S50000x1.Idx), (i 0).val = r * 10000 + (y 0).val → (i 1).val = (y 1).val → x0 y = X i)
    (h1 : ∀ y : S1x1.Idx, x1 y = b (ix1 (0 : Fin 1)))
    (j : S10000x1.Idx) (i : S50000x1.Idx) (e0 : (i 0).val = r * 10000 + (j 0).val) (e1 : (i 1).val = (j 1).val) :
    k5_pay1 x0 x1 j = FloatOps.logistic (FloatOps.addf (X i) (b (ix1 (0 : Fin 1)))) := by
  unfold k5_pay1
  have ea : (shapeCast S10000x1 x0 shapeCasts_S10000x1_S10000x1) j = X i :=
    (congrFun (shapeCast_self x0 shapeCasts_S10000x1_S10000x1) j).trans (h0 j i e0 e1)
  have eb : broadcastTo S10000x1 (shapeCast S1x1 x1 shapeCasts_S1x1_S1x1) broadcasts_S1x1_S10000x1 j = b (ix1 (0 : Fin 1)) :=
    (broadcastTo_apply (shapeCast S1x1 x1 shapeCasts_S1x1_S1x1) broadcasts_S1x1_S10000x1 j (ix2 (0 : Fin 1) (0 : Fin 1)) (fun a => by
      match a with
      | ⟨0, _⟩ => show 0 = if (1 : Nat) = 1 then 0 else _; rw [if_pos rfl]
      | ⟨1, _⟩ => show 0 = if (1 : Nat) = 1 then 0 else _; rw [if_pos rfl])).trans
    ((congrFun (shapeCast_self x1 shapeCasts_S1x1_S1x1) _).trans (h1 _))
  show FloatOps.logistic (F := Ideal) (φ := .f32) (FloatOps.addf ((shapeCast S10000x1 x0 shapeCasts_S10000x1_S10000x1) j)
      (broadcastTo S10000x1 (shapeCast S1x1 x1 shapeCasts_S1x1_S1x1) broadcasts_S1x1_S10000x1 j)) = _
  rw [ea, eb]

variable (V : (c : Dev nD) → (b : Ref sig .tc) → Buf (Elt Ideal) ((c : Thread nD τ).loc b))

/-- The three windows' block indices over the grid: the input's block moves with the output's, down the rows; the bias
    is one block; nothing moves along the one column. -/
theorem idx_facts : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 4 :=
  (by decide +kernel : ∀ t : Fin grid5.N, _)

/-- Every block of rows of the output is some point's. -/
theorem idx_onto : ∀ q : Fin 5, ∃ t : Fin cfg5.N, win5_2.index t (0 : Fin 2) = q.val :=
  (by decide +kernel : ∀ q : Fin 5, ∃ t : Fin grid5.N, win5_2.index t (0 : Fin 2) = q.val)

/-- What point `t` writes back is block `t` of the host's spelling applied to the input array as the region finds it and
    to the bias `b`, when the [1, 1] bias the region finds holds `b`'s one entry. -/
theorem flushed_eq (hb1 : S1.BroadcastsInDim S1x1 ![1]) (hb2 : S1x1.BroadcastsInDim S50000x1 ![0, 1])
    (hb0 : S_.BroadcastsInDim S50000x1 ![]) (c : Dev nD) (b : FVec Ideal S1 .f32)
    (hbias : ∀ y : S1x1.Idx, V c main_v77 y = b (ix1 (0 : Fin 1))) (t : Fin cfg5.N) :
    (dat5 V c).flushed 2 t = ((cfg5.win 2).blk t).view.read (Elt Ideal) (biasLogistic hb1 hb2 hb0 (V c main_v76) b) := by
  show (cfg5.win 2).cut (grid5.coords t) ((dat5 V c).after 2 t) = _
  rw [after5_2]
  unfold out5_2
  rw [View.canon_unit_zero hz]
  simp only [View.ld_unit_zero (S := S10000x1) hz, View.ld_unit_zero (S := S1x1) hz]
  obtain ⟨f0, f1, f2, f3, f4, f5⟩ := idx_facts t
  funext j
  show k5_pay1 (iblk5 V c 0 t) (iblk5 V c 1 t) j
    = biasLogistic hb1 hb2 hb0 (V c main_v76) b (((cfg5.win 2).blk t).view.emb j)
  rw [biasLogistic_apply]
  refine payload_entry (V c main_v76) b (iblk5 V c 0 t) (iblk5 V c 1 t) (win5_2.index t (0 : Fin 2)) ?_ ?_ j _ ?_ ?_
  · intro y i e0 e1
    show V c main_v76 (((cfg5.win 0).blk t).view.emb y) = V c main_v76 i
    refine congrArg (V c main_v76) (funext fun a => Fin.ext ?_)
    match a with
    | ⟨0, _⟩ => show win5_0.index t (0 : Fin 2) * 10000 + 1 * (y 0).val = (i 0).val; omega
    | ⟨1, _⟩ => show win5_0.index t (1 : Fin 2) * 1 + 1 * (y 1).val = (i 1).val; omega
  · intro y
    exact hbias _
  · show win5_2.index t (0 : Fin 2) * 10000 + 1 * (j 0).val = win5_2.index t (0 : Fin 2) * 10000 + (j 0).val; omega
  · show win5_2.index t (1 : Fin 2) * 1 + 1 * (j 1).val = (j 1).val; omega

/-- An entry of the output array is in point `t`'s block iff each coordinate is in the block's range on its axis. -/
theorem mem_blk (t : Fin cfg5.N) (i : S50000x1.Idx) :
    i ∈ ((cfg5.win 2).blk t).view.set ↔ ∀ a : Fin 2, win5_2.index t a * S10000x1.size a ≤ (i a).val ∧ (i a).val < win5_2.index t a * S10000x1.size a + S10000x1.size a := by
  show i ∈ ((View.whole main_v78).slice (win5_2.rect t)).set ↔ _
  rw [View.set_slice_whole, Rect.mem_set_unit]
  exact Iff.rfl

/-- The output array after the region: the host's spelling applied to the input array as the region finds it and to `b`. -/
theorem value (hb1 : S1.BroadcastsInDim S1x1 ![1]) (hb2 : S1x1.BroadcastsInDim S50000x1 ![0, 1])
    (hb0 : S_.BroadcastsInDim S50000x1 ![]) (c : Dev nD) (b : FVec Ideal S1 .f32)
    (hbias : ∀ y : S1x1.Idx, V c main_v77 y = b (ix1 (0 : Fin 1))) :
    (dat5 V c).arrAt 2 cfg5.N = biasLogistic hb1 hb2 hb0 (V c main_v76) b :=
  (dat5 V c).arrAt_eq_of_cover 2 (biasLogistic hb1 hb2 hb0 (V c main_v76) b)
    (fun t _ => flushed_eq V hb1 hb2 hb0 c b hbias t) fun i => by
      have hi0 : (i 0).val < 50000 := (i 0).isLt
      have hi1 : (i 1).val < 1 := (i 1).isLt
      obtain ⟨t, ht⟩ := idx_onto ⟨(i 0).val / 10000, by omega⟩
      obtain ⟨f0, f1, f2, f3, f4, f5⟩ := idx_facts t
      have ht' : win5_2.index t (0 : Fin 2) = (i 0).val / 10000 := ht
      refine ⟨t, flush5_2 t, ?_⟩
      rw [mem_blk]
      intro a
      match a with
      | ⟨0, _⟩ => show win5_2.index t (0 : Fin 2) * 10000 ≤ (i 0).val ∧ (i 0).val < win5_2.index t (0 : Fin 2) * 10000 + 10000; omega
      | ⟨1, _⟩ => show win5_2.index t (1 : Fin 2) * 1 ≤ (i 1).val ∧ (i 1).val < win5_2.index t (1 : Fin 2) * 1 + 1; omega

end Cert.KernelIdeal.Hand.Reg5

end
-- ==== Proof.Reg2.lean ====
/-
  The second layer's projection region: its output array after the run.

  The region tiles the rows of a [50000, 128] matrix A into five blocks of 10000 rows; at each grid point the body
  multiplies the point's block of A by the whole [128, 128] matrix B on the matrix unit, from a zero accumulator, and
  writes the [10000, 128] product back as the point's block of the output. Rounding the operands to bf16 is the identity
  on the extended reals, so entry (r, c) of what a point writes is the sum over k of A (10000·t + r, k) · B (k, c): the
  blocks are the restrictions of ONE array, the matrix product A · B, and the five blocks cover it.
-/
import proofs.«133099_j58248346468472_2_alg».proof.Proof.Gen.KernelIdeal.Frame
import proofs.«133099_j58248346468472_2_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.Reg2

open Cert.KernelIdeal Cert.KernelIdeal.Gen

theorem hz : (![0, 0] : Fin 2 → Nat) = fun _ => 0 := funext fun a => by fin_cases a <;> rfl

/-- The body's stored value at an entry: when the loaded block of the left operand is rows `r·10000 …` of `A` and the
    loaded right operand is `B`, entry `j` of the stored block is entry `i` of the product `A · B`, for `i` the entry
    `j` moved down by `r` blocks of rows. -/
theorem payload_entry (A : FVec Ideal S50000x128 .f32) (B : FVec Ideal S128x128 .f32)
    (x0 : Vec Ideal S10000x128 .f32) (x1 : Vec Ideal S128x128 .f32) (r : Nat)
    (h0 : ∀ (y : S10000x128.Idx) (i : S50000x128.Idx), (i 0).val = r * 10000 + (y 0).val → (i 1).val = (y 1).val → x0 y = A i)
    (h1 : ∀ y : S128x128.Idx, x1 y = B y)
    (j : S10000x128.Idx) (i : S50000x128.Idx) (e0 : (i 0).val = r * 10000 + (j 0).val) (e1 : (i 1).val = (j 1).val) :
    k2_pay1 x0 x1 j = Host.dotGeneral (F := Ideal) (φ₁ := .f32) (φ₂ := .f32) (DotDims.plain 50000 128 128) none A B i := by
  unfold k2_pay1
  refine (PlainDot.matmul_zero_apply (M := 10000) (K := 128) (N := 128) dot_S10000x128_S128x128_S10000x128_1_0_0_1_n_n rfl none
    (truncf .bf16 (shapeCast S10000x128 x0 shapeCasts_S10000x128_S10000x128) bitsLt_bf16_f32) (truncf .bf16 x1 bitsLt_bf16_f32) j).trans ?_
  refine Eq.trans ?_ (PlainDot.hostDot_apply (M := 50000) (K := 128) (N := 128) (DotDims.plain 50000 128 128) rfl none A B i).symm
  refine Finset.sum_congr rfl fun k _ => ?_
  have ea : x0 (ix2 (j 0) k) = A (ix2 (i 0) k) := h0 _ _ e0 rfl
  have eb : x1 (ix2 k (j 1)) = B (ix2 k (i 1)) := (h1 _).trans (congrArg B (funext fun a => Fin.ext (by
    match a with
    | ⟨0, _⟩ => rfl
    | ⟨1, _⟩ => exact e1.symm)))
  have ec : (shapeCast S10000x128 x0 shapeCasts_S10000x128_S10000x128) (ix2 (j 0) k) = x0 (ix2 (j 0) k) :=
    congrFun (shapeCast_self x0 shapeCasts_S10000x128_S10000x128) _
  show (shapeCast S10000x128 x0 shapeCasts_S10000x128_S10000x128) (ix2 (j 0) k) * x1 (ix2 k (j 1)) = A (ix2 (i 0) k) * B (ix2 k (i 1))
  rw [ec, ea, eb]

variable (V : (c : Dev nD) → (b : Ref sig .tc) → Buf (Elt Ideal) ((c : Thread nD τ).loc b))

/-- The three windows' block indices over the grid: the left operand's block moves with the output's, down the rows; the
    right operand is one block; nothing moves along the columns. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 4 :=
  (by decide +kernel : ∀ t : Fin grid2.N, _)

/-- Every block of rows of the output is some point's. -/
theorem idx_onto : ∀ q : Fin 5, ∃ t : Fin cfg2.N, win2_2.index t (0 : Fin 2) = q.val :=
  (by decide +kernel : ∀ q : Fin 5, ∃ t : Fin grid2.N, win2_2.index t (0 : Fin 2) = q.val)

/-- What point `t` writes back is block `t` of the product of the two arrays as the region finds them. -/
theorem flushed_eq (c : Dev nD) (t : Fin cfg2.N) :
    (dat2 V c).flushed 2 t = ((cfg2.win 2).blk t).view.read (Elt Ideal)
      (Host.dotGeneral (F := Ideal) (φ₁ := .f32) (φ₂ := .f32) (DotDims.plain 50000 128 128) none (V c main_v47) (V c main_arg4)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨f0, f1, f2, f3, f4, f5⟩ := idx_facts t
  funext j
  show k2_pay1 (iblk2 V c 0 t) (iblk2 V c 1 t) j
    = Host.dotGeneral (F := Ideal) (φ₁ := .f32) (φ₂ := .f32) (DotDims.plain 50000 128 128) none (V c main_v47) (V c main_arg4) (((cfg2.win 2).blk t).view.emb j)
  refine payload_entry (V c main_v47) (V c main_arg4) (iblk2 V c 0 t) (iblk2 V c 1 t) (win2_2.index t (0 : Fin 2)) ?_ ?_ j _ ?_ ?_
  · intro y i e0 e1
    show V c main_v47 (((cfg2.win 0).blk t).view.emb y) = V c main_v47 i
    refine congrArg (V c main_v47) (funext fun a => Fin.ext ?_)
    match a with
    | ⟨0, _⟩ => show win2_0.index t (0 : Fin 2) * 10000 + 1 * (y 0).val = (i 0).val; omega
    | ⟨1, _⟩ => show win2_0.index t (1 : Fin 2) * 128 + 1 * (y 1).val = (i 1).val; omega
  · intro y
    show V c main_arg4 (((cfg2.win 1).blk t).view.emb y) = V c main_arg4 y
    refine congrArg (V c main_arg4) (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · show win2_2.index t (0 : Fin 2) * 10000 + 1 * (j 0).val = win2_2.index t (0 : Fin 2) * 10000 + (j 0).val; omega
  · show win2_2.index t (1 : Fin 2) * 128 + 1 * (j 1).val = (j 1).val; omega

/-- An entry of the output array is in point `t`'s block iff each coordinate is in the block's range on its axis. -/
theorem mem_blk (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v48).slice (win2_2.rect t)).set ↔ _
  rw [View.set_slice_whole, Rect.mem_set_unit]
  exact Iff.rfl

/-- The output array after the region: the product of the two arrays as the region finds them. -/
theorem value (c : Dev nD) : (dat2 V c).arrAt 2 cfg2.N
    = Host.dotGeneral (F := Ideal) (φ₁ := .f32) (φ₂ := .f32) (DotDims.plain 50000 128 128) none (V c main_v47) (V c main_arg4) :=
  (dat2 V c).arrAt_eq_of_cover 2 (Host.dotGeneral (F := Ideal) (φ₁ := .f32) (φ₂ := .f32) (DotDims.plain 50000 128 128) none (V c main_v47) (V c main_arg4))
    (fun t _ => flushed_eq V c t) fun i => by
      have hi0 : (i 0).val < 50000 := (i 0).isLt
      have hi1 : (i 1).val < 128 := (i 1).isLt
      obtain ⟨t, ht⟩ := idx_onto ⟨(i 0).val / 10000, by omega⟩
      obtain ⟨f0, f1, f2, f3, f4, f5⟩ := idx_facts t
      have ht' : win2_2.index t (0 : Fin 2) = (i 0).val / 10000 := ht
      refine ⟨t, flush2_2 t, ?_⟩
      rw [mem_blk]
      intro a
      match a with
      | ⟨0, _⟩ => show win2_2.index t (0 : Fin 2) * 10000 ≤ (i 0).val ∧ (i 0).val < win2_2.index t (0 : Fin 2) * 10000 + 10000; omega
      | ⟨1, _⟩ => show win2_2.index t (1 : Fin 2) * 128 ≤ (i 1).val ∧ (i 1).val < win2_2.index t (1 : Fin 2) * 128 + 128; omega

end Cert.KernelIdeal.Hand.Reg2

end
-- ==== Proof.Reg3.lean ====
/-
  The second layer's bias-and-rectifier region: its output array after the run.

  The region tiles the rows of a [50000, 128] matrix X into five blocks of 10000 rows; at each grid point the body adds
  the [1, 128] bias row to every row of the point's block, takes the maximum with zero, and writes the block back. Entry
  (r, c) of what a point writes is max (X (10000·t + r, c) + b c) 0 : the blocks are the restrictions of ONE array — the
  array the host spells as X plus the bias broadcast along the rows, maximum with a broadcast zero —, and the five
  blocks cover it.
-/
import proofs.«133099_j58248346468472_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.Reg3

open Cert.KernelIdeal Cert.KernelIdeal.Gen

theorem hz : (![0, 0] : Fin 2 → Nat) = fun _ => 0 := funext fun a => by fin_cases a <;> rfl

/-- The host's spelling of the layer's epilogue on whole arrays: the bias vector made a row, the row repeated down the
    rows, added; the maximum with a scalar zero repeated everywhere. -/
def biasRelu (hb1 : S128.BroadcastsInDim S1x128 ![1]) (hb2 : S1x128.BroadcastsInDim S50000x128 ![0, 1])
    (hb0 : S_.BroadcastsInDim S50000x128 ![]) (X : FVec Ideal S50000x128 .f32) (b : FVec Ideal S128 .f32) :
    FVec Ideal S50000x128 .f32 :=
  maximumf (addf X (broadcastInDim S50000x128 ![0, 1] hb2 (broadcastInDim S1x128 ![1] hb1 b)))
    (broadcastInDim S50000x128 ![] hb0 (constant S_ .f32 0x00000000#32))

/-- The host's epilogue at an entry: the bias is read at the entry's column. -/
theorem biasRelu_apply (hb1 : S128.BroadcastsInDim S1x128 ![1]) (hb2 : S1x128.BroadcastsInDim S50000x128 ![0, 1])
    (hb0 : S_.BroadcastsInDim S50000x128 ![]) (X : FVec Ideal S50000x128 .f32) (b : FVec Ideal S128 .f32) (i : S50000x128.Idx) :
    biasRelu hb1 hb2 hb0 X b i
      = FloatOps.maximumf (FloatOps.addf (X i) (b (ix1 (i 1)))) (FloatOps.ofBits (F := Ideal) .f32 0x00000000#32) := by
  have e1 : broadcastInDim S50000x128 ![0, 1] hb2 (broadcastInDim S1x128 ![1] hb1 b) i = b (ix1 (i 1)) :=
    (broadcastInDim_apply ![0, 1] hb2 (broadcastInDim S1x128 ![1] hb1 b) i (ix2 (0 : Fin 1) (i 1) : S1x128.Idx) (fun a => by
      match a with
      | ⟨0, _⟩ => show 0 = if (1 : Nat) = 1 then 0 else (i 0).val; rw [if_pos rfl]
      | ⟨1, _⟩ => show (i 1).val = if (128 : Nat) = 1 then 0 else (i 1).val; rw [if_neg (by decide)])).trans
    (broadcastInDim_apply ![1] hb1 b (ix2 (0 : Fin 1) (i 1) : S1x128.Idx) (ix1 (i 1) : S128.Idx) (fun a => by
      match a with
      | ⟨0, _⟩ => show (i 1).val = if (128 : Nat) = 1 then 0 else (i 1).val; rw [if_neg (by decide)]))
  have e2 : broadcastInDim S50000x128 ![] hb0 (constant (F := Ideal) S_ .f32 0x00000000#32) i
      = FloatOps.ofBits (F := Ideal) .f32 0x00000000#32 :=
    broadcastInDim_apply ![] hb0 (constant (F := Ideal) S_ .f32 0x00000000#32) i ix0 (fun a => a.elim0)
  show FloatOps.maximumf (FloatOps.addf (X i) (broadcastInDim S50000x128 ![0, 1] hb2 (broadcastInDim S1x128 ![1] hb1 b) i))
      (broadcastInDim S50000x128 ![] hb0 (constant (F := Ideal) S_ .f32 0x00000000#32) i) = _
  rw [e1, e2]

/-- The body's stored value at an entry: when the loaded block is rows `r·10000 …` of `X` and the loaded bias row is
    `b` as a row, entry `j` of the stored block is max (X i + b (column of i)) 0 for `i` the entry `j` moved down by
    `r` blocks of rows. -/
theorem payload_entry (X : FVec Ideal S50000x128 .f32) (b : FVec Ideal S128 .f32)
    (x0 : Vec Ideal S10000x128 .f32) (x1 : Vec Ideal S1x128 .f32) (r : Nat)
    (h0 : ∀ (y : S10000x128.Idx) (i : S50000x128.Idx), (i 0).val = r * 10000 + (y 0).val → (i 1).val = (y 1).val → x0 y = X i)
    (h1 : ∀ y : S1x128.Idx, x1 y = b (ix1 (y 1)))
    (j : S10000x128.Idx) (i : S50000x128.Idx) (e0 : (i 0).val = r * 10000 + (j 0).val) (e1 : (i 1).val = (j 1).val) :
    k3_pay1 x0 x1 j
      = FloatOps.maximumf (FloatOps.addf (X i) (b (ix1 (i 1)))) (FloatOps.ofBits (F := Ideal) .f32 0x00000000#32) := by
  unfold k3_pay1
  have ea : (shapeCast S10000x128 x0 shapeCasts_S10000x128_S10000x128) j = X i :=
    (congrFun (shapeCast_self x0 shapeCasts_S10000x128_S10000x128) j).trans (h0 j i e0 e1)
  have eb : broadcastTo S10000x128 (shapeCast S1x128 x1 shapeCasts_S1x128_S1x128) broadcasts_S1x128_S10000x128 j = b (ix1 (i 1)) :=
    (broadcastTo_apply (shapeCast S1x128 x1 shapeCasts_S1x128_S1x128) broadcasts_S1x128_S10000x128 j (ix2 (0 : Fin 1) (j 1) : S1x128.Idx) (fun a => by
      match a with
      | ⟨0, _⟩ => show 0 = if (1 : Nat) = 1 then 0 else _; rw [if_pos rfl]
      | ⟨1, _⟩ => show (j 1).val = if (128 : Nat) = 1 then 0 else (j 1).val; rw [if_neg (by decide)])).trans
    ((congrFun (shapeCast_self x1 shapeCasts_S1x128_S1x128) _).trans ((h1 _).trans (congrArg b (funext fun a => Fin.ext (by
      match a with
      | ⟨0, _⟩ => exact e1.symm)))))
  show FloatOps.maximumf (FloatOps.addf ((shapeCast S10000x128 x0 shapeCasts_S10000x128_S10000x128) j)
      (broadcastTo S10000x128 (shapeCast S1x128 x1 shapeCasts_S1x128_S1x128) broadcasts_S1x128_S10000x128 j))
      (FloatOps.ofBits (F := Ideal) .f32 0x00000000#32) = _
  rw [ea, eb]

variable (V : (c : Dev nD) → (b : Ref sig .tc) → Buf (Elt Ideal) ((c : Thread nD τ).loc b))

/-- The three windows' block indices over the grid: the input's block moves with the output's, down the rows; the bias
    row is one block; nothing moves along the columns. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 4 :=
  (by decide +kernel : ∀ t : Fin grid3.N, _)

/-- Every block of rows of the output is some point's. -/
theorem idx_onto : ∀ q : Fin 5, ∃ t : Fin cfg3.N, win3_2.index t (0 : Fin 2) = q.val :=
  (by decide +kernel : ∀ q : Fin 5, ∃ t : Fin grid3.N, win3_2.index t (0 : Fin 2) = q.val)

/-- What point `t` writes back is block `t` of the host's epilogue of the input array as the region finds it and of the
    bias vector `b`, when the bias row the region finds is `b` as a row. -/
theorem flushed_eq (hb1 : S128.BroadcastsInDim S1x128 ![1]) (hb2 : S1x128.BroadcastsInDim S50000x128 ![0, 1])
    (hb0 : S_.BroadcastsInDim S50000x128 ![]) (c : Dev nD) (b : FVec Ideal S128 .f32)
    (hbias : ∀ y : S1x128.Idx, V c main_v62 y = b (ix1 (y 1))) (t : Fin cfg3.N) :
    (dat3 V c).flushed 2 t = ((cfg3.win 2).blk t).view.read (Elt Ideal) (biasRelu hb1 hb2 hb0 (V c main_v61) b) := by
  show (cfg3.win 2).cut (grid3.coords t) ((dat3 V c).after 2 t) = _
  rw [after3_2]
  unfold out3_2
  rw [View.canon_unit_zero hz]
  simp only [View.ld_unit_zero (S := S10000x128) hz, View.ld_unit_zero (S := S1x128) hz]
  obtain ⟨f0, f1, f2, f3, f4, f5⟩ := idx_facts t
  funext j
  show k3_pay1 (iblk3 V c 0 t) (iblk3 V c 1 t) j
    = biasRelu hb1 hb2 hb0 (V c main_v61) b (((cfg3.win 2).blk t).view.emb j)
  rw [biasRelu_apply]
  refine payload_entry (V c main_v61) b (iblk3 V c 0 t) (iblk3 V c 1 t) (win3_2.index t (0 : Fin 2)) ?_ ?_ j _ ?_ ?_
  · intro y i e0 e1
    show V c main_v61 (((cfg3.win 0).blk t).view.emb y) = V c main_v61 i
    refine congrArg (V c main_v61) (funext fun a => Fin.ext ?_)
    match a with
    | ⟨0, _⟩ => show win3_0.index t (0 : Fin 2) * 10000 + 1 * (y 0).val = (i 0).val; omega
    | ⟨1, _⟩ => show win3_0.index t (1 : Fin 2) * 128 + 1 * (y 1).val = (i 1).val; omega
  · intro y
    have he : ((cfg3.win 1).blk t).view.emb y = y := funext fun a => Fin.ext (by
      match a with
      | ⟨0, _⟩ => show win3_1.index t (0 : Fin 2) * 1 + 1 * (y 0).val = (y 0).val; omega
      | ⟨1, _⟩ => show win3_1.index t (1 : Fin 2) * 128 + 1 * (y 1).val = (y 1).val; omega)
    show V c main_v62 (((cfg3.win 1).blk t).view.emb y) = b (ix1 (y 1))
    exact (congrArg (V c main_v62) he).trans (hbias y)
  · show win3_2.index t (0 : Fin 2) * 10000 + 1 * (j 0).val = win3_2.index t (0 : Fin 2) * 10000 + (j 0).val; omega
  · show win3_2.index t (1 : Fin 2) * 128 + 1 * (j 1).val = (j 1).val; omega

/-- An entry of the output array is in point `t`'s block iff each coordinate is in the block's range on its axis. -/
theorem mem_blk (t : Fin cfg3.N) (i : S50000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v63).slice (win3_2.rect t)).set ↔ _
  rw [View.set_slice_whole, Rect.mem_set_unit]
  exact Iff.rfl

/-- The output array after the region: the host's epilogue of the input array as the region finds it and of `b`. -/
theorem value (hb1 : S128.BroadcastsInDim S1x128 ![1]) (hb2 : S1x128.BroadcastsInDim S50000x128 ![0, 1])
    (hb0 : S_.BroadcastsInDim S50000x128 ![]) (c : Dev nD) (b : FVec Ideal S128 .f32)
    (hbias : ∀ y : S1x128.Idx, V c main_v62 y = b (ix1 (y 1))) :
    (dat3 V c).arrAt 2 cfg3.N = biasRelu hb1 hb2 hb0 (V c main_v61) b :=
  (dat3 V c).arrAt_eq_of_cover 2 (biasRelu hb1 hb2 hb0 (V c main_v61) b)
    (fun t _ => flushed_eq V hb1 hb2 hb0 c b hbias t) fun i => by
      have hi0 : (i 0).val < 50000 := (i 0).isLt
      have hi1 : (i 1).val < 128 := (i 1).isLt
      obtain ⟨t, ht⟩ := idx_onto ⟨(i 0).val / 10000, by omega⟩
      obtain ⟨f0, f1, f2, f3, f4, f5⟩ := idx_facts t
      have ht' : win3_2.index t (0 : Fin 2) = (i 0).val / 10000 := ht
      refine ⟨t, flush3_2 t, ?_⟩
      rw [mem_blk]
      intro a
      match a with
      | ⟨0, _⟩ => show win3_2.index t (0 : Fin 2) * 10000 ≤ (i 0).val ∧ (i 0).val < win3_2.index t (0 : Fin 2) * 10000 + 10000; omega
      | ⟨1, _⟩ => show win3_2.index t (1 : Fin 2) * 128 ≤ (i 1).val ∧ (i 1).val < win3_2.index t (1 : Fin 2) * 128 + 128; omega

end Cert.KernelIdeal.Hand.Reg3

end
-- ==== Proof.Reg0.lean ====
/-
  The first layer's projection region: its output array after the run.

  The region tiles the rows of a [50000, 128] matrix A into five blocks of 10000 rows; at each grid point the body
  multiplies the point's block of A by the whole [128, 128] matrix B on the matrix unit, from a zero accumulator, and
  writes the [10000, 128] product back as the point's block of the output. Rounding the operands to bf16 is the identity
  on the extended reals, so entry (r, c) of what a point writes is the sum over k of A (10000·t + r, k) · B (k, c): the
  blocks are the restrictions of ONE array, the matrix product A · B, and the five blocks cover it.
-/
import proofs.«133099_j58248346468472_2_alg».proof.Proof.Gen.KernelIdeal.Frame
import proofs.«133099_j58248346468472_2_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.Reg0

open Cert.KernelIdeal Cert.KernelIdeal.Gen

theorem hz : (![0, 0] : Fin 2 → Nat) = fun _ => 0 := funext fun a => by fin_cases a <;> rfl

/-- The body's stored value at an entry: when the loaded block of the left operand is rows `r·10000 …` of `A` and the
    loaded right operand is `B`, entry `j` of the stored block is entry `i` of the product `A · B`, for `i` the entry
    `j` moved down by `r` blocks of rows. -/
theorem payload_entry (A : FVec Ideal S50000x128 .f32) (B : FVec Ideal S128x128 .f32)
    (x0 : Vec Ideal S10000x128 .f32) (x1 : Vec Ideal S128x128 .f32) (r : Nat)
    (h0 : ∀ (y : S10000x128.Idx) (i : S50000x128.Idx), (i 0).val = r * 10000 + (y 0).val → (i 1).val = (y 1).val → x0 y = A i)
    (h1 : ∀ y : S128x128.Idx, x1 y = B y)
    (j : S10000x128.Idx) (i : S50000x128.Idx) (e0 : (i 0).val = r * 10000 + (j 0).val) (e1 : (i 1).val = (j 1).val) :
    k0_pay1 x0 x1 j = Host.dotGeneral (F := Ideal) (φ₁ := .f32) (φ₂ := .f32) (DotDims.plain 50000 128 128) none A B i := by
  unfold k0_pay1
  refine (PlainDot.matmul_zero_apply (M := 10000) (K := 128) (N := 128) dot_S10000x128_S128x128_S10000x128_1_0_0_1_n_n rfl none
    (truncf .bf16 x0 bitsLt_bf16_f32) (truncf .bf16 x1 bitsLt_bf16_f32) j).trans ?_
  refine Eq.trans ?_ (PlainDot.hostDot_apply (M := 50000) (K := 128) (N := 128) (DotDims.plain 50000 128 128) rfl none A B i).symm
  refine Finset.sum_congr rfl fun k _ => ?_
  have ea : x0 (ix2 (j 0) k) = A (ix2 (i 0) k) := h0 _ _ e0 rfl
  have eb : x1 (ix2 k (j 1)) = B (ix2 k (i 1)) := (h1 _).trans (congrArg B (funext fun a => Fin.ext (by
    match a with
    | ⟨0, _⟩ => rfl
    | ⟨1, _⟩ => exact e1.symm)))
  show x0 (ix2 (j 0) k) * x1 (ix2 k (j 1)) = A (ix2 (i 0) k) * B (ix2 k (i 1))
  rw [ea, eb]

variable (V : (c : Dev nD) → (b : Ref sig .tc) → Buf (Elt Ideal) ((c : Thread nD τ).loc b))

/-- The three windows' block indices over the grid: the left operand's block moves with the output's, down the rows; the
    right operand is one block; nothing moves along the columns. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 4 :=
  (by decide +kernel : ∀ t : Fin grid0.N, _)

/-- Every block of rows of the output is some point's. -/
theorem idx_onto : ∀ q : Fin 5, ∃ t : Fin cfg0.N, win0_2.index t (0 : Fin 2) = q.val :=
  (by decide +kernel : ∀ q : Fin 5, ∃ t : Fin grid0.N, win0_2.index t (0 : Fin 2) = q.val)

/-- What point `t` writes back is block `t` of the product of the two arrays as the region finds them. -/
theorem flushed_eq (c : Dev nD) (t : Fin cfg0.N) :
    (dat0 V c).flushed 2 t = ((cfg0.win 2).blk t).view.read (Elt Ideal)
      (Host.dotGeneral (F := Ideal) (φ₁ := .f32) (φ₂ := .f32) (DotDims.plain 50000 128 128) none (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨f0, f1, f2, f3, f4, f5⟩ := idx_facts t
  funext j
  show k0_pay1 (iblk0 V c 0 t) (iblk0 V c 1 t) j
    = Host.dotGeneral (F := Ideal) (φ₁ := .f32) (φ₂ := .f32) (DotDims.plain 50000 128 128) none (V c main_arg0) (V c main_arg2) (((cfg0.win 2).blk t).view.emb j)
  refine payload_entry (V c main_arg0) (V c main_arg2) (iblk0 V c 0 t) (iblk0 V c 1 t) (win0_2.index t (0 : Fin 2)) ?_ ?_ j _ ?_ ?_
  · intro y i e0 e1
    show V c main_arg0 (((cfg0.win 0).blk t).view.emb y) = V c main_arg0 i
    refine congrArg (V c main_arg0) (funext fun a => Fin.ext ?_)
    match a with
    | ⟨0, _⟩ => show win0_0.index t (0 : Fin 2) * 10000 + 1 * (y 0).val = (i 0).val; omega
    | ⟨1, _⟩ => show win0_0.index t (1 : Fin 2) * 128 + 1 * (y 1).val = (i 1).val; omega
  · intro y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 10000 + 1 * (j 0).val = win0_2.index t (0 : Fin 2) * 10000 + (j 0).val; omega
  · show win0_2.index t (1 : Fin 2) * 128 + 1 * (j 1).val = (j 1).val; omega

/-- An entry of the output array is in point `t`'s block iff each coordinate is in the block's range on its axis. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- The output array after the region: the product of the two arrays as the region finds them. -/
theorem value (c : Dev nD) : (dat0 V c).arrAt 2 cfg0.N
    = Host.dotGeneral (F := Ideal) (φ₁ := .f32) (φ₂ := .f32) (DotDims.plain 50000 128 128) none (V c main_arg0) (V c main_arg2) :=
  (dat0 V c).arrAt_eq_of_cover 2 (Host.dotGeneral (F := Ideal) (φ₁ := .f32) (φ₂ := .f32) (DotDims.plain 50000 128 128) none (V c main_arg0) (V c main_arg2))
    (fun t _ => flushed_eq V c t) fun i => by
      have hi0 : (i 0).val < 50000 := (i 0).isLt
      have hi1 : (i 1).val < 128 := (i 1).isLt
      obtain ⟨t, ht⟩ := idx_onto ⟨(i 0).val / 10000, by omega⟩
      obtain ⟨f0, f1, f2, f3, f4, f5⟩ := idx_facts t
      have ht' : win0_2.index t (0 : Fin 2) = (i 0).val / 10000 := ht
      refine ⟨t, flush0_2 t, ?_⟩
      rw [mem_blk]
      intro a
      match a with
      | ⟨0, _⟩ => show win0_2.index t (0 : Fin 2) * 10000 ≤ (i 0).val ∧ (i 0).val < win0_2.index t (0 : Fin 2) * 10000 + 10000; omega
      | ⟨1, _⟩ => show win0_2.index t (1 : Fin 2) * 128 ≤ (i 1).val ∧ (i 1).val < win0_2.index t (1 : Fin 2) * 128 + 128; omega

end Cert.KernelIdeal.Hand.Reg0

end
-- ==== Proof.Reg1.lean ====
/-
  The first layer's bias-and-rectifier region: its output array after the run.

  The region tiles the rows of a [50000, 128] matrix X into five blocks of 10000 rows; at each grid point the body adds
  the [1, 128] bias row to every row of the point's block, takes the maximum with zero, and writes the block back. Entry
  (r, c) of what a point writes is max (X (10000·t + r, c) + b c) 0 : the blocks are the restrictions of ONE array — the
  array the host spells as X plus the bias broadcast along the rows, maximum with a broadcast zero —, and the five
  blocks cover it.
-/
import proofs.«133099_j58248346468472_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.Reg1

open Cert.KernelIdeal Cert.KernelIdeal.Gen

theorem hz : (![0, 0] : Fin 2 → Nat) = fun _ => 0 := funext fun a => by fin_cases a <;> rfl

/-- The host's spelling of the layer's epilogue on whole arrays: the bias vector made a row, the row repeated down the
    rows, added; the maximum with a scalar zero repeated everywhere. -/
def biasRelu (hb1 : S128.BroadcastsInDim S1x128 ![1]) (hb2 : S1x128.BroadcastsInDim S50000x128 ![0, 1])
    (hb0 : S_.BroadcastsInDim S50000x128 ![]) (X : FVec Ideal S50000x128 .f32) (b : FVec Ideal S128 .f32) :
    FVec Ideal S50000x128 .f32 :=
  maximumf (addf X (broadcastInDim S50000x128 ![0, 1] hb2 (broadcastInDim S1x128 ![1] hb1 b)))
    (broadcastInDim S50000x128 ![] hb0 (constant S_ .f32 0x00000000#32))

/-- The host's epilogue at an entry: the bias is read at the entry's column. -/
theorem biasRelu_apply (hb1 : S128.BroadcastsInDim S1x128 ![1]) (hb2 : S1x128.BroadcastsInDim S50000x128 ![0, 1])
    (hb0 : S_.BroadcastsInDim S50000x128 ![]) (X : FVec Ideal S50000x128 .f32) (b : FVec Ideal S128 .f32) (i : S50000x128.Idx) :
    biasRelu hb1 hb2 hb0 X b i
      = FloatOps.maximumf (FloatOps.addf (X i) (b (ix1 (i 1)))) (FloatOps.ofBits (F := Ideal) .f32 0x00000000#32) := by
  have e1 : broadcastInDim S50000x128 ![0, 1] hb2 (broadcastInDim S1x128 ![1] hb1 b) i = b (ix1 (i 1)) :=
    (broadcastInDim_apply ![0, 1] hb2 (broadcastInDim S1x128 ![1] hb1 b) i (ix2 (0 : Fin 1) (i 1) : S1x128.Idx) (fun a => by
      match a with
      | ⟨0, _⟩ => show 0 = if (1 : Nat) = 1 then 0 else (i 0).val; rw [if_pos rfl]
      | ⟨1, _⟩ => show (i 1).val = if (128 : Nat) = 1 then 0 else (i 1).val; rw [if_neg (by decide)])).trans
    (broadcastInDim_apply ![1] hb1 b (ix2 (0 : Fin 1) (i 1) : S1x128.Idx) (ix1 (i 1) : S128.Idx) (fun a => by
      match a with
      | ⟨0, _⟩ => show (i 1).val = if (128 : Nat) = 1 then 0 else (i 1).val; rw [if_neg (by decide)]))
  have e2 : broadcastInDim S50000x128 ![] hb0 (constant (F := Ideal) S_ .f32 0x00000000#32) i
      = FloatOps.ofBits (F := Ideal) .f32 0x00000000#32 :=
    broadcastInDim_apply ![] hb0 (constant (F := Ideal) S_ .f32 0x00000000#32) i ix0 (fun a => a.elim0)
  show FloatOps.maximumf (FloatOps.addf (X i) (broadcastInDim S50000x128 ![0, 1] hb2 (broadcastInDim S1x128 ![1] hb1 b) i))
      (broadcastInDim S50000x128 ![] hb0 (constant (F := Ideal) S_ .f32 0x00000000#32) i) = _
  rw [e1, e2]

/-- The body's stored value at an entry: when the loaded block is rows `r·10000 …` of `X` and the loaded bias row is
    `b` as a row, entry `j` of the stored block is max (X i + b (column of i)) 0 for `i` the entry `j` moved down by
    `r` blocks of rows. -/
theorem payload_entry (X : FVec Ideal S50000x128 .f32) (b : FVec Ideal S128 .f32)
    (x0 : Vec Ideal S10000x128 .f32) (x1 : Vec Ideal S1x128 .f32) (r : Nat)
    (h0 : ∀ (y : S10000x128.Idx) (i : S50000x128.Idx), (i 0).val = r * 10000 + (y 0).val → (i 1).val = (y 1).val → x0 y = X i)
    (h1 : ∀ y : S1x128.Idx, x1 y = b (ix1 (y 1)))
    (j : S10000x128.Idx) (i : S50000x128.Idx) (e0 : (i 0).val = r * 10000 + (j 0).val) (e1 : (i 1).val = (j 1).val) :
    k1_pay1 x0 x1 j
      = FloatOps.maximumf (FloatOps.addf (X i) (b (ix1 (i 1)))) (FloatOps.ofBits (F := Ideal) .f32 0x00000000#32) := by
  unfold k1_pay1
  have ea : (shapeCast S10000x128 x0 shapeCasts_S10000x128_S10000x128) j = X i :=
    (congrFun (shapeCast_self x0 shapeCasts_S10000x128_S10000x128) j).trans (h0 j i e0 e1)
  have eb : broadcastTo S10000x128 (shapeCast S1x128 x1 shapeCasts_S1x128_S1x128) broadcasts_S1x128_S10000x128 j = b (ix1 (i 1)) :=
    (broadcastTo_apply (shapeCast S1x128 x1 shapeCasts_S1x128_S1x128) broadcasts_S1x128_S10000x128 j (ix2 (0 : Fin 1) (j 1) : S1x128.Idx) (fun a => by
      match a with
      | ⟨0, _⟩ => show 0 = if (1 : Nat) = 1 then 0 else _; rw [if_pos rfl]
      | ⟨1, _⟩ => show (j 1).val = if (128 : Nat) = 1 then 0 else (j 1).val; rw [if_neg (by decide)])).trans
    ((congrFun (shapeCast_self x1 shapeCasts_S1x128_S1x128) _).trans ((h1 _).trans (congrArg b (funext fun a => Fin.ext (by
      match a with
      | ⟨0, _⟩ => exact e1.symm)))))
  show FloatOps.maximumf (FloatOps.addf ((shapeCast S10000x128 x0 shapeCasts_S10000x128_S10000x128) j)
      (broadcastTo S10000x128 (shapeCast S1x128 x1 shapeCasts_S1x128_S1x128) broadcasts_S1x128_S10000x128 j))
      (FloatOps.ofBits (F := Ideal) .f32 0x00000000#32) = _
  rw [ea, eb]

variable (V : (c : Dev nD) → (b : Ref sig .tc) → Buf (Elt Ideal) ((c : Thread nD τ).loc b))

/-- The three windows' block indices over the grid: the input's block moves with the output's, down the rows; the bias
    row is one block; nothing moves along the columns. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 4 :=
  (by decide +kernel : ∀ t : Fin grid1.N, _)

/-- Every block of rows of the output is some point's. -/
theorem idx_onto : ∀ q : Fin 5, ∃ t : Fin cfg1.N, win1_2.index t (0 : Fin 2) = q.val :=
  (by decide +kernel : ∀ q : Fin 5, ∃ t : Fin grid1.N, win1_2.index t (0 : Fin 2) = q.val)

/-- What point `t` writes back is block `t` of the host's epilogue of the input array as the region finds it and of the
    bias vector `b`, when the bias row the region finds is `b` as a row. -/
theorem flushed_eq (hb1 : S128.BroadcastsInDim S1x128 ![1]) (hb2 : S1x128.BroadcastsInDim S50000x128 ![0, 1])
    (hb0 : S_.BroadcastsInDim S50000x128 ![]) (c : Dev nD) (b : FVec Ideal S128 .f32)
    (hbias : ∀ y : S1x128.Idx, V c main_v46 y = b (ix1 (y 1))) (t : Fin cfg1.N) :
    (dat1 V c).flushed 2 t = ((cfg1.win 2).blk t).view.read (Elt Ideal) (biasRelu hb1 hb2 hb0 (V c main_v45) b) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨f0, f1, f2, f3, f4, f5⟩ := idx_facts t
  funext j
  show k1_pay1 (iblk1 V c 0 t) (iblk1 V c 1 t) j
    = biasRelu hb1 hb2 hb0 (V c main_v45) b (((cfg1.win 2).blk t).view.emb j)
  rw [biasRelu_apply]
  refine payload_entry (V c main_v45) b (iblk1 V c 0 t) (iblk1 V c 1 t) (win1_2.index t (0 : Fin 2)) ?_ ?_ j _ ?_ ?_
  · intro y i e0 e1
    show V c main_v45 (((cfg1.win 0).blk t).view.emb y) = V c main_v45 i
    refine congrArg (V c main_v45) (funext fun a => Fin.ext ?_)
    match a with
    | ⟨0, _⟩ => show win1_0.index t (0 : Fin 2) * 10000 + 1 * (y 0).val = (i 0).val; omega
    | ⟨1, _⟩ => show win1_0.index t (1 : Fin 2) * 128 + 1 * (y 1).val = (i 1).val; omega
  · intro y
    have he : ((cfg1.win 1).blk t).view.emb y = y := funext fun a => Fin.ext (by
      match a with
      | ⟨0, _⟩ => show win1_1.index t (0 : Fin 2) * 1 + 1 * (y 0).val = (y 0).val; omega
      | ⟨1, _⟩ => show win1_1.index t (1 : Fin 2) * 128 + 1 * (y 1).val = (y 1).val; omega)
    show V c main_v46 (((cfg1.win 1).blk t).view.emb y) = b (ix1 (y 1))
    exact (congrArg (V c main_v46) he).trans (hbias y)
  · show win1_2.index t (0 : Fin 2) * 10000 + 1 * (j 0).val = win1_2.index t (0 : Fin 2) * 10000 + (j 0).val; omega
  · show win1_2.index t (1 : Fin 2) * 128 + 1 * (j 1).val = (j 1).val; omega

/-- An entry of the output array is in point `t`'s block iff each coordinate is in the block's range on its axis. -/
theorem mem_blk (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- The output array after the region: the host's epilogue of the input array as the region finds it and of `b`. -/
theorem value (hb1 : S128.BroadcastsInDim S1x128 ![1]) (hb2 : S1x128.BroadcastsInDim S50000x128 ![0, 1])
    (hb0 : S_.BroadcastsInDim S50000x128 ![]) (c : Dev nD) (b : FVec Ideal S128 .f32)
    (hbias : ∀ y : S1x128.Idx, V c main_v46 y = b (ix1 (y 1))) :
    (dat1 V c).arrAt 2 cfg1.N = biasRelu hb1 hb2 hb0 (V c main_v45) b :=
  (dat1 V c).arrAt_eq_of_cover 2 (biasRelu hb1 hb2 hb0 (V c main_v45) b)
    (fun t _ => flushed_eq V hb1 hb2 hb0 c b hbias t) fun i => by
      have hi0 : (i 0).val < 50000 := (i 0).isLt
      have hi1 : (i 1).val < 128 := (i 1).isLt
      obtain ⟨t, ht⟩ := idx_onto ⟨(i 0).val / 10000, by omega⟩
      obtain ⟨f0, f1, f2, f3, f4, f5⟩ := idx_facts t
      have ht' : win1_2.index t (0 : Fin 2) = (i 0).val / 10000 := ht
      refine ⟨t, flush1_2 t, ?_⟩
      rw [mem_blk]
      intro a
      match a with
      | ⟨0, _⟩ => show win1_2.index t (0 : Fin 2) * 10000 ≤ (i 0).val ∧ (i 0).val < win1_2.index t (0 : Fin 2) * 10000 + 10000; omega
      | ⟨1, _⟩ => show win1_2.index t (1 : Fin 2) * 128 ≤ (i 1).val ∧ (i 1).val < win1_2.index t (1 : Fin 2) * 128 + 128; omega

end Cert.KernelIdeal.Hand.Reg1

end
-- ==== Proof.KLayer1.lean ====
/-
  The first layer, through the fold.

  The first projection region leaves the product of the node features with the first weight matrix. The layer's host
  stretch gathers that product's rows at the edge sources, scales each by the edge's weight and scatter-adds them at the
  edge targets — the same operations, on the same edge lists and weights, as the reference's — and makes the bias a
  row. The epilogue region adds the bias and rectifies. So the layer's output array holds the reference's first hidden
  activations, the stage it calls `main_v49`, as a function of the arguments.
-/
import proofs.«133099_j58248346468472_2_alg».proof.Proof.Gen.KernelIdeal.Frame
import proofs.«133099_j58248346468472_2_alg».proof.Proof.RefRead
import proofs.«133099_j58248346468472_2_alg».proof.Proof.KKeep
import proofs.«133099_j58248346468472_2_alg».proof.Proof.KBase
import proofs.«133099_j58248346468472_2_alg».proof.Proof.Reg0
import proofs.«133099_j58248346468472_2_alg».proof.Proof.Reg1

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg) (c : Dev nD)

/-- After the first projection region its output holds the reference's first product. -/
theorem W4_main_v32 : W4 m ρ c (Proc.devRef .tc main_v32) = Cert.ReferenceIdeal.Read.val_main_v32 (F := Ideal) (m ((c : Thread nD τ).loc main_arg0)) (m ((c : Thread nD τ).loc main_arg2)) := by
  refine (W4_arr m ρ c 2).trans ?_
  refine (Reg0.value (V3 m ρ) c).trans ?_
  show Host.dotGeneral (F := Ideal) (φ₁ := .f32) (φ₂ := .f32) (DotDims.plain 50000 128 128) none
    (W3 m ρ c (Proc.devRef .tc main_arg0)) (W3 m ρ c (Proc.devRef .tc main_arg2)) = _
  rw [W3_main_arg0, W3_main_arg2]
  rfl

/-- The first layer's aggregation: the reference's scatter-add of the weighted gathered rows. -/
theorem W5_main_v45 : W5 m ρ c (Proc.devRef .tc main_v45) = Cert.ReferenceIdeal.Read.val_main_v45 (F := Ideal) (m ((c : Thread nD τ).loc main_arg0)) (m ((c : Thread nD τ).loc main_arg1)) (m ((c : Thread nD τ).loc main_arg2)) := by
  show StableHlo.after hostOps1 (W4 m ρ c) (Proc.devRef .tc main_v45) = _
  simp only [hostOps1]
  after_results_simp
  rw [W4_main_v32, W4_main_v3, W4_main_v6, W4_main_v31, W3_main_v3, W3_main_v6, W3_main_v31]
  rfl

/-- The first bias as a row, read at an entry. -/
theorem W5_main_v46 (y : S1x128.Idx) : W5 m ρ c (Proc.devRef .tc main_v46) y = (m ((c : Thread nD τ).loc main_arg3)) (ix1 (y 1)) := by
  have e : W5 m ρ c (Proc.devRef .tc main_v46) = shapeCast S1x128 (W4 m ρ c (Proc.devRef .tc main_arg3)) shapeCasts_S128_S1x128 := by
    show StableHlo.after hostOps1 (W4 m ρ c) (Proc.devRef .tc main_v46) = _
    simp only [hostOps1]
    after_results_simp
    rfl
  rw [e, W4_main_arg3]
  refine (shapeCast_addUnit_apply ![128] (m ((c : Thread nD τ).loc main_arg3)) shapeCasts_S128_S1x128 y).trans ?_
  exact congrArg (m ((c : Thread nD τ).loc main_arg3)) (funext fun a => by
    match a with
    | ⟨0, _⟩ => rfl)

/-- After the first epilogue region its output holds the reference's first hidden activations. -/
theorem W6_main_v47 : W6 m ρ c (Proc.devRef .tc main_v47) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  refine (Reg1.value (V5 m ρ) Cert.ReferenceIdeal.Gen.bcast_S128_S1x128_1 Cert.ReferenceIdeal.Gen.bcast_S1x128_S50000x128_0_1 Cert.ReferenceIdeal.Gen.bcast_S_S50000x128 c
    (m ((c : Thread nD τ).loc main_arg3)) (fun y => W5_main_v46 m ρ c y)).trans ?_
  show Reg1.biasRelu _ _ _ (W5 m ρ c (Proc.devRef .tc main_v45)) (m ((c : Thread nD τ).loc main_arg3)) = _
  rw [W5_main_v45]
  rfl

end Cert.KernelIdeal.Hand

end
-- ==== Proof.KLayer2.lean ====
/-
  The second layer, through the fold.

  The second projection region multiplies the first hidden activations by the second weight matrix; the layer's host
  stretch aggregates over the edges as before and makes the second bias a row; the epilogue region adds the bias and
  rectifies. The layer's output array holds the reference's second hidden activations, its stage `main_v67`.
-/
import proofs.«133099_j58248346468472_2_alg».proof.Proof.Gen.KernelIdeal.Frame
import proofs.«133099_j58248346468472_2_alg».proof.Proof.RefRead
import proofs.«133099_j58248346468472_2_alg».proof.Proof.KKeep
import proofs.«133099_j58248346468472_2_alg».proof.Proof.KBase
import proofs.«133099_j58248346468472_2_alg».proof.Proof.Reg2
import proofs.«133099_j58248346468472_2_alg».proof.Proof.Reg3
import proofs.«133099_j58248346468472_2_alg».proof.Proof.KLayer1

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg) (c : Dev nD)

/-- After the second projection region its output holds the reference's second product. -/
theorem W7_main_v48 : W7 m ρ c (Proc.devRef .tc main_v48) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  refine (Reg2.value (V6 m ρ) c).trans ?_
  show Host.dotGeneral (F := Ideal) (φ₁ := .f32) (φ₂ := .f32) (DotDims.plain 50000 128 128) none
    (W6 m ρ c (Proc.devRef .tc main_v47)) (W6 m ρ c (Proc.devRef .tc main_arg4)) = _
  rw [W6_main_v47, W6_main_arg4]
  rfl

/-- The second layer's aggregation: the reference's scatter-add of the weighted gathered rows. -/
theorem W8_main_v61 : W8 m ρ c (Proc.devRef .tc main_v61) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W7 m ρ c) (Proc.devRef .tc main_v61) = _
  simp only [hostOps3]
  after_results_simp
  rw [W7_main_v48, W7_main_v3, W7_main_v6, W7_main_v31, W3_main_v3, W3_main_v6, W3_main_v31]
  rfl

/-- The second bias as a row, read at an entry. -/
theorem W8_main_v62 (y : S1x128.Idx) : W8 m ρ c (Proc.devRef .tc main_v62) y = (m ((c : Thread nD τ).loc main_arg5)) (ix1 (y 1)) := by
  have e : W8 m ρ c (Proc.devRef .tc main_v62) = shapeCast S1x128 (W7 m ρ c (Proc.devRef .tc main_arg5)) shapeCasts_S128_S1x128 := by
    show StableHlo.after hostOps3 (W7 m ρ c) (Proc.devRef .tc main_v62) = _
    simp only [hostOps3]
    after_results_simp
    rfl
  rw [e, W7_main_arg5]
  refine (shapeCast_addUnit_apply ![128] (m ((c : Thread nD τ).loc main_arg5)) shapeCasts_S128_S1x128 y).trans ?_
  exact congrArg (m ((c : Thread nD τ).loc main_arg5)) (funext fun a => by
    match a with
    | ⟨0, _⟩ => rfl)

/-- After the second epilogue region its output holds the reference's second hidden activations. -/
theorem W9_main_v63 : W9 m ρ c (Proc.devRef .tc main_v63) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  refine (Reg3.value (V8 m ρ) Cert.ReferenceIdeal.Gen.bcast_S128_S1x128_1 Cert.ReferenceIdeal.Gen.bcast_S1x128_S50000x128_0_1 Cert.ReferenceIdeal.Gen.bcast_S_S50000x128 c
    (m ((c : Thread nD τ).loc main_arg5)) (fun y => W8_main_v62 m ρ c y)).trans ?_
  show Reg3.biasRelu _ _ _ (W8 m ρ c (Proc.devRef .tc main_v61)) (m ((c : Thread nD τ).loc main_arg5)) = _
  rw [W8_main_v61]
  rfl

end Cert.KernelIdeal.Hand

end
-- ==== Proof.KLayer3.lean ====
/-
  The third layer, through the fold, and the program's result.

  The third projection region multiplies the second hidden activations by the [128, 1] weight column; the layer's host
  stretch aggregates over the edges and makes the scalar bias a [1, 1] array; the last region adds the bias and applies
  the logistic function, which on the extended reals is the quotient 1 / (1 + exp (−x)) the reference spells out. The
  result array holds the reference's result, its stage `main_v89`, as a function of the eight arguments.
-/
import proofs.«133099_j58248346468472_2_alg».proof.Proof.Gen.KernelIdeal.Frame
import proofs.«133099_j58248346468472_2_alg».proof.Proof.RefRead
import proofs.«133099_j58248346468472_2_alg».proof.Proof.KKeep
import proofs.«133099_j58248346468472_2_alg».proof.Proof.KBase
import proofs.«133099_j58248346468472_2_alg».proof.Proof.Reg4
import proofs.«133099_j58248346468472_2_alg».proof.Proof.Reg5
import proofs.«133099_j58248346468472_2_alg».proof.Proof.KLayer2

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg) (c : Dev nD)

/-- After the third projection region its output holds the reference's third product. -/
theorem W10_main_v64 : W10 m ρ c (Proc.devRef .tc main_v64) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ?_
  refine (Reg4.value (V9 m ρ) c).trans ?_
  show Host.dotGeneral (F := Ideal) (φ₁ := .f32) (φ₂ := .f32) (DotDims.plain 50000 128 1) none
    (W9 m ρ c (Proc.devRef .tc main_v63)) (W9 m ρ c (Proc.devRef .tc main_arg6)) = _
  rw [W9_main_v63, W9_main_arg6]
  rfl

/-- The third layer's aggregation: the reference's scatter-add of the weighted gathered entries. -/
theorem W11_main_v76 : W11 m ρ c (Proc.devRef .tc main_v76) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W10 m ρ c) (Proc.devRef .tc main_v76) = _
  simp only [hostOps5]
  after_results_simp
  rw [W10_main_v64, W10_main_v3, W10_main_v6, W10_main_v31, W3_main_v3, W3_main_v6, W3_main_v31]
  rfl

/-- The third bias as a [1, 1] array: its one entry. -/
theorem W11_main_v77 (y : S1x1.Idx) : W11 m ρ c (Proc.devRef .tc main_v77) y = (m ((c : Thread nD τ).loc main_arg7)) (ix1 (0 : Fin 1)) := by
  have e : W11 m ρ c (Proc.devRef .tc main_v77) = shapeCast S1x1 (W10 m ρ c (Proc.devRef .tc main_arg7)) shapeCasts_S1_S1x1 := by
    show StableHlo.after hostOps5 (W10 m ρ c) (Proc.devRef .tc main_v77) = _
    simp only [hostOps5]
    after_results_simp
    rfl
  rw [e, W10_main_arg7]
  refine (shapeCast_addUnit_apply ![1] (m ((c : Thread nD τ).loc main_arg7)) shapeCasts_S1_S1x1 y).trans ?_
  exact congrArg (m ((c : Thread nD τ).loc main_arg7)) (funext fun a => Fin.ext (by
    match a with
    | ⟨0, _⟩ => show (y 1).val = 0; have h1 : (y 1).val < 1 := (y 1).isLt; omega))

/-- The program's result array after the run is the reference's result stage of the eight arguments. -/
theorem W12_main_v78 : W12 m ρ c (Proc.devRef .tc main_v78) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ?_
  refine (Reg5.value (V11 m ρ) Cert.ReferenceIdeal.Gen.bcast_S1_S1x1_1 Cert.ReferenceIdeal.Gen.bcast_S1x1_S50000x1_0_1 Cert.ReferenceIdeal.Gen.bcast_S_S50000x1 c
    (m ((c : Thread nD τ).loc main_arg7)) (fun y => W11_main_v77 m ρ c y)).trans ?_
  show Reg5.biasLogistic _ _ _ (W11 m ρ c (Proc.devRef .tc main_v76)) (m ((c : Thread nD τ).loc main_arg7)) = _
  rw [W11_main_v76]
  rfl

end Cert.KernelIdeal.Hand

end
-- ==== Proof.lean ====
/-
  A three-layer graph convolution, tiled, against its plain reference — equal on the extended reals.

  Both programs build the same edge data on the host: the edge lists with one self-loop per node appended, every node's
  in-degree as a scatter-add of ones, its inverse square root where positive, and per edge the product of the factors at
  its two ends. Each layer is then  out = scatter-add over targets of (weight · gathered row of (X · W)) + bias, followed
  by the rectifier (layers 1, 2) or the logistic function (layer 3).

  The kernel program differs from the reference only inside its six tiled regions. A projection region multiplies a
  block of 10000 rows by the whole weight matrix on the matrix unit from a zero accumulator, after rounding the operands
  to bf16; on the extended reals the rounding is the identity and the blocks are restrictions of the one product X · W,
  the reference's `dot_general`. An epilogue region adds the bias row to a block of rows and takes the maximum with zero,
  entry by entry what the reference's broadcast, add and maximum compute; the last one applies the logistic function,
  which on the extended reals is the reference's 1 / (1 + exp (−x)). Gathers and scatter-adds are never opened: they are
  the same host operations applied to equal operands.

  The reference's run and its stages are the repaired copies RefRun / RefRead of the generated modules; the kernel's run
  is its generated frame with the result array kept (KRun); Reg0 … Reg5 read each region's output array; KKeep, KBase and
  KLayer1 … KLayer3 carry the values through the fold of host stretches and regions. No law that needs finiteness is
  used, so the precondition is never opened.
-/
import proofs.«133099_j58248346468472_2_alg».proof.Defs
import proofs.«133099_j58248346468472_2_alg».proof.Proof.Gen.Kernel
import proofs.«133099_j58248346468472_2_alg».proof.Proof.Gen.Kernel.Frame
import proofs.«133099_j58248346468472_2_alg».proof.Proof.Gen.KernelIdeal
import proofs.«133099_j58248346468472_2_alg».proof.Proof.Gen.KernelIdeal.Frame
import proofs.«133099_j58248346468472_2_alg».proof.Proof.Gen.ReferenceIdeal
import proofs.«133099_j58248346468472_2_alg».proof.Proof.Gen.Pre_finite_inputs
import proofs.«133099_j58248346468472_2_alg».proof.Proof.RefRun
import proofs.«133099_j58248346468472_2_alg».proof.Proof.RefRead
import proofs.«133099_j58248346468472_2_alg».proof.Proof.KRun
import proofs.«133099_j58248346468472_2_alg».proof.Proof.KLayer3
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the reference's result stage of the (agreeing) arguments. -/
theorem algebraic : Cert.algebraic_KernelIdeal_ReferenceIdeal := by
  intro m ρ m' ρ' _ hagree
  refine ⟨fun c => Cert.ReferenceIdeal.Read.val_main_v89 (F := Ideal)
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.W12_main_v78 m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v89_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
